-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S100000x64 : Shape := ⟨2, ![100000, 64]⟩
abbrev S3200000 : Shape := ⟨1, ![3200000]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S3200000 : S_.BroadcastsInDim S3200000 (![] : Fin 0 → Fin S3200000.rank)
  reducesTo_S3200000_S_d0 : S3200000.ReducesTo [0] S_

variable [Facts]

def fn {F : FTy → Type} [FloatOps F] (main_arg0 : FVec F S1 .f32) (main_arg1 : FVec F S100000x64 .f32) (main_arg2 : IVec S3200000 32) (main_arg3 : IVec S3200000 32) (main_arg4 : FVec F S3200000 .f32) : IVec S_ 1 :=
  let main_v0 : FVec F S1 .f32 := Host.absf main_arg0
  let main_cst : FVec F S_ .f32 := constant S_ .f32 0x7F800000#32
  let main_v1 : FVec F S1 .f32 := broadcastInDim S1 ![] bcast_S_S1 main_cst
  let main_v2 : IVec S1 1 := cmpf .olt main_v0 main_v1
  let main_c : IVec S_ 1 := constantI S_ 1 1#1
  let main_v3 : IVec S_ 1 := (fun x v => Host.reduce IntOp.andi x v reducesTo_S1_S_d0 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S3200000 .f32 := Host.absf main_arg4
  let main_cst_2 : FVec F S_ .f32 := constant S_ .f32 0x7F800000#32
  let main_v10 : FVec F S3200000 .f32 := broadcastInDim S3200000 ![] bcast_S_S3200000 main_cst_2
  let main_v11 : IVec S3200000 1 := cmpf .olt main_v9 main_v10
  let main_c_3 : IVec S_ 1 := constantI S_ 1 1#1
  let main_v12 : IVec S_ 1 := (fun x v => Host.reduce IntOp.andi x v reducesTo_S3200000_S_d0 h_S_) main_v11 main_c_3
  let main_v13 : IVec S_ 1 := andi main_v8 main_v12
  main_v13
-- ==== Kernel.lean ====
abbrev S1 : Shape := ⟨1, ![1]⟩
abbrev S100000x64 : Shape := ⟨2, ![100000, 64]⟩
abbrev S3200000 : Shape := ⟨1, ![3200000]⟩
abbrev S_ : Shape := ⟨0, ![]⟩
abbrev S3200000x1 : Shape := ⟨2, ![3200000, 1]⟩
abbrev S3200000x64 : Shape := ⟨2, ![3200000, 64]⟩
abbrev S8000x64 : Shape := ⟨2, ![8000, 64]⟩
abbrev S8000x1 : Shape := ⟨2, ![8000, 1]⟩
abbrev S5000x64 : Shape := ⟨2, ![5000, 64]⟩

abbrev nBuf : Space → Nat
  | .hbm => 21
  | .vmem => 10
  | .smem => 0
  | _ => 0

abbrev bufTy : (tb : Table) → Fin (tcTables nBuf tb) → BufTy
  | .hbm, ⟨0, _⟩ => ⟨S1, .f32⟩
  | .hbm, ⟨1, _⟩ => ⟨S100000x64, .f32⟩
  | .hbm, ⟨2, _⟩ => ⟨S3200000, .i32⟩
  | .hbm, ⟨3, _⟩ => ⟨S3200000, .i32⟩
  | .hbm, ⟨4, _⟩ => ⟨S3200000, .f32⟩
  | .hbm, ⟨5, _⟩ => ⟨S_, .i32⟩
  | .hbm, ⟨6, _⟩ => ⟨S3200000, .i32⟩
  | .hbm, ⟨7, _⟩ => ⟨S3200000, .i1⟩
  | .hbm, ⟨8, _⟩ => ⟨S_, .i32⟩
  | .hbm, ⟨9, _⟩ => ⟨S3200000, .i32⟩
  | .hbm, ⟨10, _⟩ => ⟨S3200000, .i32⟩
  | .hbm, ⟨11, _⟩ => ⟨S3200000, .i32⟩
  | .hbm, ⟨12, _⟩ => ⟨S3200000x1, .i32⟩
  | .hbm, ⟨13, _⟩ => ⟨S3200000x64, .f32⟩
  | .hbm, ⟨14, _⟩ => ⟨S3200000x1, .f32⟩
  | .hbm, ⟨15, _⟩ => ⟨S3200000x64, .f32⟩
  | .hbm, ⟨16, _⟩ => ⟨S_, .f32⟩
  | .hbm, ⟨17, _⟩ => ⟨S100000x64, .f32⟩
  | .hbm, ⟨18, _⟩ => ⟨S3200000x1, .i32⟩
  | .hbm, ⟨19, _⟩ => ⟨S100000x64, .f32⟩
  | .hbm, ⟨20, _⟩ => ⟨S100000x64, .f32⟩
  | .local _ .vmem, ⟨0, _⟩ => ⟨S8000x64, .f32⟩
  | .local _ .vmem, ⟨1, _⟩ => ⟨S8000x64, .f32⟩
  | .local _ .vmem, ⟨2, _⟩ => ⟨S8000x1, .f32⟩
  | .local _ .vmem, ⟨3, _⟩ => ⟨S8000x1, .f32⟩
  | .local _ .vmem, ⟨4, _⟩ => ⟨S8000x64, .f32⟩
  | .local _ .vmem, ⟨5, _⟩ => ⟨S8000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  shapeCasts_S3200000_S3200000x1 : S3200000.ShapeCasts S3200000x1
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x64 : S8000x1.Broadcasts S8000x64
  bcast_S_S100000x64 : S_.BroadcastsInDim S100000x64 (![] : Fin 0 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S3200000x64.size a
  hwx0_0 : ∀ i : grid0.Coords, EltTy.bits .f32 = 32 ∨ (Rect.block (s := S3200000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x1.size a ≤ S3200000x1.size a
  hwx0_1 : ∀ i : grid0.Coords, EltTy.bits .f32 = 32 ∨ (Rect.block (s := S3200000x1) S8000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x64.size a ≤ S3200000x64.size a
  hwx0_2 : ∀ i : grid0.Coords, EltTy.bits .f32 = 32 ∨ (Rect.block (s := S3200000x64) S8000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)

variable [Facts₀]

def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf

abbrev win0_0 : Pipeline.Window sig grid0 :=
  Pipeline.Window.ofSpec (Memref.whole main_v6) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S8000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S8000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v11) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x64.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S1 : Shape := ⟨1, ![1]⟩
abbrev S100000x64 : Shape := ⟨2, ![100000, 64]⟩
abbrev S3200000 : Shape := ⟨1, ![3200000]⟩
abbrev S3200000x1 : Shape := ⟨2, ![3200000, 1]⟩
abbrev S_ : Shape := ⟨0, ![]⟩
abbrev S3200000x64 : Shape := ⟨2, ![3200000, 64]⟩

abbrev nBuf : Space → Nat
  | .hbm => 48
  | .vmem => 0
  | .smem => 0
  | _ => 0

abbrev bufTy : (tb : Table) → Fin (tcTables nBuf tb) → BufTy
  | .hbm, ⟨0, _⟩ => ⟨S1, .f32⟩
  | .hbm, ⟨1, _⟩ => ⟨S100000x64, .f32⟩
  | .hbm, ⟨2, _⟩ => ⟨S3200000, .i32⟩
  | .hbm, ⟨3, _⟩ => ⟨S3200000, .i32⟩
  | .hbm, ⟨4, _⟩ => ⟨S3200000, .f32⟩
  | .hbm, ⟨5, _⟩ => ⟨S3200000x1, .f32⟩
  | .hbm, ⟨6, _⟩ => ⟨S_, .i32⟩
  | .hbm, ⟨7, _⟩ => ⟨S3200000, .i32⟩
  | .hbm, ⟨8, _⟩ => ⟨S3200000, .i1⟩
  | .hbm, ⟨9, _⟩ => ⟨S_, .i32⟩
  | .hbm, ⟨10, _⟩ => ⟨S3200000, .i32⟩
  | .hbm, ⟨11, _⟩ => ⟨S3200000, .i32⟩
  | .hbm, ⟨12, _⟩ => ⟨S3200000, .i32⟩
  | .hbm, ⟨13, _⟩ => ⟨S3200000x1, .i32⟩
  | .hbm, ⟨14, _⟩ => ⟨S3200000x64, .f32⟩
  | .hbm, ⟨15, _⟩ => ⟨S3200000x64, .f32⟩
  | .hbm, ⟨16, _⟩ => ⟨S3200000x64, .f32⟩
  | .hbm, ⟨17, _⟩ => ⟨S_, .f32⟩
  | .hbm, ⟨18, _⟩ => ⟨S100000x64, .f32⟩
  | .hbm, ⟨19, _⟩ => ⟨S3200000x1, .i32⟩
  | .hbm, ⟨20, _⟩ => ⟨S100000x64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S100000x64, .i1⟩
  | .hbm, ⟨25, _⟩ => ⟨S_, .f32⟩
  | .hbm, ⟨26, _⟩ => ⟨S100000x64, .f32⟩
  | .hbm, ⟨27, _⟩ => ⟨S100000x64, .f32⟩
  | .hbm, ⟨28, _⟩ => ⟨S_, .f32⟩
  | .hbm, ⟨29, _⟩ => ⟨S100000x64, .f32⟩
  | .hbm, ⟨30, _⟩ => ⟨S100000x64, .i1⟩
  | .hbm, ⟨31, _⟩ => ⟨S_, .f32⟩
  | .hbm, ⟨32, _⟩ => ⟨S100000x64, .f32⟩
  | .hbm, ⟨33, _⟩ => ⟨S100000x64, .f32⟩
  | .hbm, ⟨34, _⟩ => ⟨S_, .f32⟩
  | .hbm, ⟨35, _⟩ => ⟨S100000x64, .f32⟩
  | .hbm, ⟨36, _⟩ => ⟨S100000x64, .i1⟩
  | .hbm, ⟨37, _⟩ => ⟨S_, .f32⟩
  | .hbm, ⟨38, _⟩ => ⟨S100000x64, .f32⟩
  | .hbm, ⟨39, _⟩ => ⟨S100000x64, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S100000x64, .f32⟩
  | .hbm, ⟨44, _⟩ => ⟨S100000x64, .f32⟩
  | .hbm, ⟨45, _⟩ => ⟨S_, .f32⟩
  | .hbm, ⟨46, _⟩ => ⟨S100000x64, .f32⟩
  | .hbm, ⟨47, _⟩ => ⟨S100000x64, .f32⟩
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_cst_2 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_call0_call0_v0 : Ref sig .tc := ⟨.hbm, 26, rfl⟩
abbrev main_call0_v2 : Ref sig .tc := ⟨.hbm, 27, rfl⟩
abbrev main_call0_cst : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_call1_v0 : Ref sig .tc := ⟨.hbm, 32, rfl⟩
abbrev main_call0_v6 : Ref sig .tc := ⟨.hbm, 33, rfl⟩
abbrev main_call0_cst_0 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_call2_v0 : Ref sig .tc := ⟨.hbm, 38, rfl⟩
abbrev main_v13 : Ref sig .tc := ⟨.hbm, 39, rfl⟩
abbrev main_cst_4 : Ref sig .tc := ⟨.hbm, 40, rfl⟩
abbrev main_cst_5 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_v14 : Ref sig .tc := ⟨.hbm, 47, rfl⟩

abbrev nD : Nat := 1
abbrev τ : Topo := Topo.v7x

variable {F : FTy → Type} [FloatOps F]

class Facts₀ : Prop where
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1

variable [Facts₀]

def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf

class Facts : Prop extends Facts₀ where

variable [Facts]
-- ==== Proof.KernelRun.lean ====
/-
  The idealized kernel's run with its RESULT named. The program is four stretches in a row: host operations (the
  wrap of negative source indices, the row gather, the weights viewed as a column), the weighted-multiply region,
  host operations again (the zero array, the destinations as a column, the scatter-add), and the sanitize-and-clamp
  region. The contents of the buffers that outlive the regions are followed from the launch memory through the four
  stretches: a host stretch applies its operations in order; a region leaves its output array at what its
  write-backs leave and every other such buffer untouched. Every weakly fair execution terminates in a state that
  agrees with the contents `W4` at the last boundary on all those buffers; the result buffer is one of them, and the
  five arguments, which nothing writes, read back through the four stretches to the launch memory.
-/
import proofs.«167203_j56083682951493_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents read at the result and the argument arrays as launched. -/
theorem run_W4 : θ_run defs (onTc (τ := τ) (main (F := F))) ⟨m, fun _ => 0, ρ⟩ (fun r => ∀ c : Dev nD,
      r.2.mem ((c.tc : Thread nD τ).loc main_v12) = W4 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v12 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.KernelIdeal.Result

end
-- ==== Proof.ScaleRegion.lean ====
/-
  The weighted-multiply region, read as one function of the two arrays it finds. The region walks the 3200000 edges
  in 400 blocks of 8000; at point t it loads block t of the gathered rows (8000 x 64) and block t of the weight
  column (8000 x 1), multiplies every entry of a row by that row's weight, and writes the product back as block t of
  the output. The three block indices coincide at every point, so entry (e, k) of the output is entry (e, k) of the
  rows times entry (e, 0) of the column; and the 400 blocks tile the array (edge e lies in block e / 8000), so this
  holds at every index.
-/
import proofs.«167203_j56083682951493_2_alg».proof.Proof.Gen.KernelIdeal.Frame
import Idealize.ShloMosaic.Lib.Pipeline.Value
import Idealize.ShloMosaic.Lib.ValueIdx

noncomputable section

namespace Cert.KernelIdeal.ScaleRegion

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem zero_offsets : (![0, 0] : Fin 2 → Nat) = fun _ => 0 := funext fun a => by fin_cases a <;> rfl

/-- The entry of the weight column on the row of an entry (e, k): (e, 0). -/
def rowOf (i : S3200000x64.Idx) : S3200000x1.Idx := ix2 (⟨(i 0).val, idx2_lt0 i⟩ : Fin 3200000) (0 : Fin 1)

/-- The output array as a function of the rows and the weight column: entry (e, k) is rows (e, k) times column (e, 0). -/
def scaled (g : S3200000x64.Idx → Ideal .f32) (w : S3200000x1.Idx → Ideal .f32) : S3200000x64.Idx → Ideal .f32 :=
  fun i => g i * w (rowOf i)

/-- The body's stored value at entry j of the block: the loaded row entry times the loaded column's entry on j's
    row (the column is broadcast along its unit axis). -/
theorem stored_apply (x0 : Vec Ideal S8000x64 .f32) (x1 : Vec Ideal S8000x1 .f32) (j : S8000x64.Idx) (k : S8000x1.Idx)
    (hk : (k 0).val = (j 0).val) : k0_pay1 (F := Ideal) x0 x1 j = x0 j * x1 k := by
  unfold k0_pay1
  simp only [shapeCast_self]
  show x0 j * broadcastTo S8000x64 x1 broadcasts_S8000x1_S8000x64 j = x0 j * x1 k
  rw [broadcastTo_apply x1 broadcasts_S8000x1_S8000x64 j k (by
    intro a
    match a with
    | ⟨0, _⟩ => exact hk
    | ⟨1, _⟩ => show (k 1).val = 0; have h : (k 1).val < 1 := (k 1).isLt; omega)]

/-- At every grid point the three windows have the same row-block index, point t itself, and column-block index 0. -/
theorem block_index : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = 0
    ∧ win0_2.index t (0 : Fin 2) = t.val ∧ win0_2.index t (1 : Fin 2) = 0 :=
  (by decide +kernel : ∀ t : Fin grid0.N, _)

/-- What point t writes back is block t of `scaled` of the two arrays the region found. -/
theorem flushed_eq (c : Dev nD) (t : Fin cfg0.N) :
    (dat0 V c).flushed 2 t = ((cfg0.win 2).blk t).view.read (Elt Ideal) (scaled (V c main_v6) (V c main_v7)) := by
  show (cfg0.win 2).cut (grid0.coords t) ((dat0 V c).after 2 t) = _
  rw [after0_2]
  unfold out0_2
  rw [View.canon_unit_zero zero_offsets]
  simp only [View.ld_unit_zero (S := S8000x64) zero_offsets, View.ld_unit_zero (S := S8000x1) zero_offsets]
  obtain ⟨e0, e1, e2, e3, e4, e5⟩ := block_index t
  funext j
  have hj : (j 0).val < 8000 := (j 0).isLt
  let k : S8000x1.Idx := ix2 (⟨(j 0).val, hj⟩ : Fin 8000) (0 : Fin 1)
  refine (stored_apply (iblk0 V c 0 t) (iblk0 V c 1 t) j k rfl).trans ?_
  have h0 : ((cfg0.win 0).blk t).view.emb j = ((cfg0.win 2).blk t).view.emb j := by
    funext a; apply Fin.ext
    match a with
    | ⟨0, _⟩ => show win0_0.index t (0 : Fin 2) * 8000 + 1 * (j 0).val = win0_2.index t (0 : Fin 2) * 8000 + 1 * (j 0).val; omega
    | ⟨1, _⟩ => show win0_0.index t (1 : Fin 2) * 64 + 1 * (j 1).val = win0_2.index t (1 : Fin 2) * 64 + 1 * (j 1).val; omega
  have h1 : ((cfg0.win 1).blk t).view.emb k = rowOf (((cfg0.win 2).blk t).view.emb j) := by
    funext a; apply Fin.ext
    match a with
    | ⟨0, _⟩ => show win0_1.index t (0 : Fin 2) * 8000 + 1 * (j 0).val = win0_2.index t (0 : Fin 2) * 8000 + 1 * (j 0).val; omega
    | ⟨1, _⟩ => show win0_1.index t (1 : Fin 2) * 1 + 1 * 0 = 0; omega
  have a0 : (iblk0 V c 0 t j : Ideal .f32) = (V c main_v6 (((cfg0.win 2).blk t).view.emb j) : Ideal .f32) := by
    show V c main_v6 (((cfg0.win 0).blk t).view.emb j) = V c main_v6 (((cfg0.win 2).blk t).view.emb j)
    rw [h0]
  have a1 : (iblk0 V c 1 t k : Ideal .f32) = (V c main_v7 (rowOf (((cfg0.win 2).blk t).view.emb j)) : Ideal .f32) := by
    show V c main_v7 (((cfg0.win 1).blk t).view.emb k) = V c main_v7 (rowOf (((cfg0.win 2).blk t).view.emb j))
    rw [h1]
  exact congrArg₂ (fun (a b : Ideal .f32) => a * b) a0 a1

/-- An index is in point t's output block iff each coordinate is in the block's range on its axis. -/
theorem mem_block (t : Fin cfg0.N) (i : S3200000x64.Idx) :
    i ∈ ((cfg0.win 2).blk t).view.set ↔ ∀ a : Fin 2, win0_2.index t a * S8000x64.size a ≤ (i a).val ∧ (i a).val < win0_2.index t a * S8000x64.size a + S8000x64.size a := by
  show i ∈ ((View.whole main_v8).slice (win0_2.rect t)).set ↔ _
  rw [View.set_slice_whole, Rect.mem_set_unit]
  exact Iff.rfl

/-- Every index is in some point's output block: edge e in block e / 8000. -/
theorem covered (i : S3200000x64.Idx) : ∃ t : Fin cfg0.N, (cfg0.win 2).flush t = true ∧ i ∈ ((cfg0.win 2).blk t).view.set := by
  have hi0 : (i 0).val < 3200000 := idx2_lt0 i
  have hi1 : (i 1).val < 64 := idx2_lt1 i
  have hN : cfg0.N = 400 := N_0
  let t : Fin cfg0.N := ⟨(i 0).val / 8000, by rw [hN]; omega⟩
  obtain ⟨e0, e1, e2, e3, e4, e5⟩ := block_index t
  have ht : t.val = (i 0).val / 8000 := rfl
  refine ⟨t, flush0_2 t, ?_⟩
  rw [mem_block]
  intro a
  match a with
  | ⟨0, _⟩ => show win0_2.index t (0 : Fin 2) * 8000 ≤ (i 0).val ∧ (i 0).val < win0_2.index t (0 : Fin 2) * 8000 + 8000; omega
  | ⟨1, _⟩ => show win0_2.index t (1 : Fin 2) * 64 ≤ (i 1).val ∧ (i 1).val < win0_2.index t (1 : Fin 2) * 64 + 64; omega

/-- The output array after the region: the rows scaled by their weights. -/
theorem final (c : Dev nD) : (dat0 V c).arrAt 2 cfg0.N = scaled (V c main_v6) (V c main_v7) :=
  (dat0 V c).arrAt_eq_of_cover 2 _ (fun t _ => flushed_eq V c t) covered

end Cert.KernelIdeal.ScaleRegion

end
-- ==== Proof.Spec.lean ====
/-
  The function both programs compute, on the extended reals.

  A graph with 100000 nodes carries a feature row of 64 numbers per node, and 3200000 weighted edges. Edge e has a
  source node, a destination node and a weight. The message of edge e is the source node's row times the edge's
  weight; node n's sum is the sum of the messages of the edges whose destination is n; and every entry of every
  sum is then passed through one scalar map: the three guards of nan_to_num (a value unequal to itself becomes 0 —
  no extended real is —, plus infinity becomes 10^6, minus infinity becomes -10^6) and the clamp to [-20, 20].

  The row gather (with the wrap of a negative source index) and the scatter-add are the same two host operations
  in both programs, so they are carried here as they are printed and never opened.
-/
import proofs.«167203_j56083682951493_2_alg».proof.KernelIdeal
import Idealize.ShloMosaic.PureOps.Ideal
import Idealize.ShloMosaic.Lib.ValueIdx

noncomputable section

namespace Cert.Spec

open Idealize.ShloMosaic Idealize.ShloMosaic.ValueIdx Cert.KernelIdeal

/-- The scalar map after the sums: `x ≠ x` (asked by the predicate `p`, ordered or unordered: the same question
    on the extended reals) selects 0, else x; then +∞ selects 10^6; then -∞ selects -10^6; then max with -20 and
    min with 20. -/
def clampS (p : CmpFPredicate) (x : Ideal .f32) : Ideal .f32 :=
  let a : Ideal .f32 := Scalar.select (FloatOps.cmpf p x x) (FloatOps.ofBits .f32 0x00000000#32) x
  let b : Ideal .f32 := Scalar.select (FloatOps.cmpf .oeq a (FloatOps.ofBits .f32 0x7F800000#32)) (FloatOps.ofBits .f32 0x49742400#32) a
  let d : Ideal .f32 := Scalar.select (FloatOps.cmpf .oeq b (FloatOps.ofBits .f32 0xFF800000#32)) (FloatOps.ofBits .f32 0xC9742400#32) b
  FloatOps.minimumf (FloatOps.ofBits .f32 0x41A00000#32) (FloatOps.maximumf (FloatOps.ofBits .f32 0xC1A00000#32) d)

/-- "Unordered or unequal" and "ordered and unequal" are one comparison on the extended reals, which have no NaN. -/
theorem clampS_une (x : Ideal .f32) : clampS .une x = clampS .one x := rfl

section
variable [Cert.KernelIdeal.Facts]
open Cert.KernelIdeal.Facts₀

/-- The source rows: a negative source index wraps by the node count, and row `src e` of `x` is gathered for
    every edge e. -/
def rows (x : FVec Ideal S100000x64 .f32) (src : IVec S3200000 32) : FVec Ideal S3200000x64 .f32 :=
  Host.gather gather_S100000x64_S3200000x1_S3200000x64_1_0_n_n_0_1_164 x
    (broadcastInDim S3200000x1 ![0] bcast_S3200000_S3200000x1_0
      (select (cmpi .slt src (broadcastInDim S3200000 ![] bcast_S_S3200000 (constantI S_ 32 0#32)))
        (addi src (broadcastInDim S3200000 ![] bcast_S_S3200000 (constantI S_ 32 100000#32))) src))

/-- The messages: entry (e, k) of the gathered rows times edge e's weight. -/
def weighted (g : FVec Ideal S3200000x64 .f32) (w : FVec Ideal S3200000 .f32) : FVec Ideal S3200000x64 .f32 :=
  fun i => g i * w (ix1 ⟨(i 0).val, idx2_lt0 i⟩)

/-- The sums: the messages scatter-added, by destination, onto the zero array. -/
def summed (u : FVec Ideal S3200000x64 .f32) (dst : IVec S3200000 32) : FVec Ideal S100000x64 .f32 :=
  Host.scatterAdd scatter_S100000x64_S3200000x1_S3200000x64_1_0_0_1
    (broadcastInDim S100000x64 ![] bcast_S_S100000x64 (constant (F := Ideal) S_ .f32 0x00000000#32))
    (broadcastInDim S3200000x1 ![0] bcast_S3200000_S3200000x1_0 dst) u

/-- The result: every entry of the sums through the scalar map. -/
def result (x : FVec Ideal S100000x64 .f32) (src dst : IVec S3200000 32) (w : FVec Ideal S3200000 .f32) :
    FVec Ideal S100000x64 .f32 :=
  fun i => clampS .one (summed (weighted (rows x src) w) dst i)

end

end Cert.Spec

end
-- ==== Proof.ClampRegion.lean ====
/-
  The sanitize-and-clamp region, read as one function of the array it finds. The region walks the 100000 x 64 array
  in 20 blocks of 5000 rows; at point t it loads block t, applies the scalar map to every entry, and writes the
  result back as block t of the output array. The input and the output block indices coincide at every point, so
  entry i of the output is the scalar map of entry i of the input; and the 20 blocks tile the array (row r lies in
  block r / 5000), so this holds at every index.
-/
import proofs.«167203_j56083682951493_2_alg».proof.Proof.Gen.KernelIdeal.Frame
import proofs.«167203_j56083682951493_2_alg».proof.Proof.Spec
import Idealize.ShloMosaic.Lib.Pipeline.Value

noncomputable section

namespace Cert.KernelIdeal.ClampRegion

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem zero_offsets : (![0, 0] : Fin 2 → Nat) = fun _ => 0 := funext fun a => by fin_cases a <;> rfl

/-- The body's stored value, entry by entry: the scalar map of the loaded entry. -/
theorem stored_eq (x : Vec Ideal S5000x64 .f32) : k1_pay1 (F := Ideal) x = fun j => Cert.Spec.clampS .one (x j) := by
  unfold k1_pay1
  simp only [shapeCast_self]
  rfl

/-- At every grid point the input block and the output block have the same block index: point t itself on the
    rows, 0 on the columns. -/
theorem block_index : ∀ t : Fin cfg1.N, win1_0.index t (0 : Fin 2) = win1_1.index t (0 : Fin 2)
    ∧ win1_0.index t (1 : Fin 2) = win1_1.index t (1 : Fin 2)
    ∧ win1_1.index t (0 : Fin 2) = t.val ∧ win1_1.index t (1 : Fin 2) = 0 :=
  (by decide +kernel : ∀ t : Fin grid1.N, _)

/-- What point t writes back is block t of the scalar map applied entrywise to the array the region found. -/
theorem flushed_eq (c : Dev nD) (t : Fin cfg1.N) :
    (dat1 V c).flushed 1 t = ((cfg1.win 1).blk t).view.read (Elt Ideal) (fun i => Cert.Spec.clampS .one (V c main_v11 i)) := by
  show (cfg1.win 1).cut (grid1.coords t) ((dat1 V c).after 1 t) = _
  rw [after1_1]
  unfold out1_1
  rw [View.canon_unit_zero zero_offsets]
  simp only [View.ld_unit_zero (S := S5000x64) zero_offsets]
  rw [stored_eq (iblk1 V c 0 t)]
  obtain ⟨e0, e1, e2, e3⟩ := block_index t
  funext j
  show Cert.Spec.clampS .one (V c main_v11 (((cfg1.win 0).blk t).view.emb j)) = Cert.Spec.clampS .one (V c main_v11 (((cfg1.win 1).blk t).view.emb j))
  have h0 : ((cfg1.win 0).blk t).view.emb j = ((cfg1.win 1).blk t).view.emb j := by
    funext a; apply Fin.ext
    match a with
    | ⟨0, _⟩ => show win1_0.index t (0 : Fin 2) * 5000 + 1 * (j 0).val = win1_1.index t (0 : Fin 2) * 5000 + 1 * (j 0).val; omega
    | ⟨1, _⟩ => show win1_0.index t (1 : Fin 2) * 64 + 1 * (j 1).val = win1_1.index t (1 : Fin 2) * 64 + 1 * (j 1).val; omega
  rw [h0]

/-- An index is in point t's output block iff each coordinate is in the block's range on its axis. -/
theorem mem_block (t : Fin cfg1.N) (i : S100000x64.Idx) :
    i ∈ ((cfg1.win 1).blk t).view.set ↔ ∀ a : Fin 2, win1_1.index t a * S5000x64.size a ≤ (i a).val ∧ (i a).val < win1_1.index t a * S5000x64.size a + S5000x64.size a := by
  show i ∈ ((View.whole main_v12).slice (win1_1.rect t)).set ↔ _
  rw [View.set_slice_whole, Rect.mem_set_unit]
  exact Iff.rfl

/-- Every index is in some point's output block: row r in block r / 5000. -/
theorem covered (i : S100000x64.Idx) : ∃ t : Fin cfg1.N, (cfg1.win 1).flush t = true ∧ i ∈ ((cfg1.win 1).blk t).view.set := by
  have hi0 : (i 0).val < 100000 := idx2_lt0 i
  have hi1 : (i 1).val < 64 := idx2_lt1 i
  have hN : cfg1.N = 20 := N_1
  let t : Fin cfg1.N := ⟨(i 0).val / 5000, by rw [hN]; omega⟩
  obtain ⟨e0, e1, e2, e3⟩ := block_index t
  have ht : t.val = (i 0).val / 5000 := rfl
  refine ⟨t, flush1_1 t, ?_⟩
  rw [mem_block]
  intro a
  match a with
  | ⟨0, _⟩ => show win1_1.index t (0 : Fin 2) * 5000 ≤ (i 0).val ∧ (i 0).val < win1_1.index t (0 : Fin 2) * 5000 + 5000; omega
  | ⟨1, _⟩ => show win1_1.index t (1 : Fin 2) * 64 ≤ (i 1).val ∧ (i 1).val < win1_1.index t (1 : Fin 2) * 64 + 64; omega

/-- The output array after the region: the scalar map of the input array, entry by entry. -/
theorem final (c : Dev nD) : (dat1 V c).arrAt 1 cfg1.N = fun i => Cert.Spec.clampS .one (V c main_v11 i) :=
  (dat1 V c).arrAt_eq_of_cover 1 _ (fun t _ => flushed_eq V c t) covered

end Cert.KernelIdeal.ClampRegion

end
-- ==== Proof.KernelValue.lean ====
/-
  The idealized kernel's result as one function of its arguments. The buffer contents are followed through the
  program's four stretches. Before the first region the host gathers the source rows (after wrapping negative source
  indices) and views the weight vector as a column: entry (e, 0) of the column is weight e. The first region leaves
  the rows scaled by their weights: the messages. Between the regions the host scatter-adds the messages by
  destination onto zeros; the destinations are an argument, which nothing has written. The second region applies
  the scalar guard-and-clamp map to every sum. Composed, that is the specification's `result`.
-/
import proofs.«167203_j56083682951493_2_alg».proof.Proof.KernelRun
import proofs.«167203_j56083682951493_2_alg».proof.Proof.ScaleRegion
import proofs.«167203_j56083682951493_2_alg».proof.Proof.ClampRegion
import proofs.«167203_j56083682951493_2_alg».proof.Proof.Spec
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.StableHlo
open Idealize.ShloMosaic.ValueIdx

variable (m : (ℓ : Loc nD τ sig) → Buf (Elt Ideal) ℓ) (ρ : Dev nD → PrngReg)

attribute [local irreducible] Host.gather Host.scatterAdd

/-- Entering the first region, the rows buffer holds the gathered source rows of the launch contents. -/
theorem rows_eq (c : Dev nD) :
    V1 m ρ c main_v6 = Cert.Spec.rows (m ((c.tc : Thread nD τ).loc main_arg1)) (m ((c.tc : Thread nD τ).loc main_arg2)) := by
  show StableHlo.after hostOps0 (W0 m ρ c) (Proc.devRef .tc main_v6) = _
  after_results
  rfl

/-- Entering the first region, the column buffer holds the weight vector viewed as a column. -/
theorem column_eq (c : Dev nD) :
    V1 m ρ c main_v7 = shapeCast S3200000x1 (m ((c.tc : Thread nD τ).loc main_arg4) : S3200000.Idx → Ideal .f32) shapeCasts_S3200000_S3200000x1 := by
  show StableHlo.after hostOps0 (W0 m ρ c) (Proc.devRef .tc main_v7) = _
  after_results
  rfl

/-- Entry (e, 0) of the weight vector viewed as a column is weight e. -/
theorem column_apply (w : S3200000.Idx → Ideal .f32) (i : S3200000x64.Idx) :
    shapeCast S3200000x1 w shapeCasts_S3200000_S3200000x1 (ScaleRegion.rowOf i) = w (ix1 ⟨(i 0).val, idx2_lt0 i⟩) := by
  refine shapeCast_apply w shapeCasts_S3200000_S3200000x1 (ScaleRegion.rowOf i) (ix1 ⟨(i 0).val, idx2_lt0 i⟩) ?_
  rw [Shape.rowMajor_val_one, Shape.rowMajor_val_two]
  show (i 0).val = (i 0).val * 1 + 0
  omega

/-- The first region leaves the messages: the gathered rows, each scaled by its edge's weight. -/
theorem messages_eq (c : Dev nD) :
    W2 m ρ c (Proc.devRef .tc main_v8)
      = Cert.Spec.weighted (Cert.Spec.rows (m ((c.tc : Thread nD τ).loc main_arg1)) (m ((c.tc : Thread nD τ).loc main_arg2)))
          (m ((c.tc : Thread nD τ).loc main_arg4)) := by
  refine (W2_arr m ρ c 2).trans ?_
  rw [ScaleRegion.final (V1 m ρ) c, rows_eq m ρ c, column_eq m ρ c]
  funext i
  unfold ScaleRegion.scaled Cert.Spec.weighted
  rw [column_apply]

/-- The destinations are as launched when the scatter-add reads them: no operation and no region writes an argument. -/
theorem dst_eq (c : Dev nD) : W2 m ρ c (Proc.devRef .tc main_arg3) = m ((c.tc : Thread nD τ).loc main_arg3) := by
  refine (W2_of_ne m ρ c main_arg3 (by decide)).trans ?_
  show StableHlo.after hostOps0 (W0 m ρ c) (Proc.devRef .tc main_arg3) = _
  after_results

/-- Entering the second region, the sums buffer holds the scatter-add of what the first region left, by the
    destinations as they then are. -/
theorem sums_eq (c : Dev nD) :
    V3 m ρ c main_v11 = Cert.Spec.summed (W2 m ρ c (Proc.devRef .tc main_v8)) (W2 m ρ c (Proc.devRef .tc main_arg3)) := by
  show StableHlo.after hostOps1 (W2 m ρ c) (Proc.devRef .tc main_v11) = _
  after_results
  rfl

/-- The contents of the result buffer at the last boundary: the specification's result of the launch contents. -/
theorem result_eq (c : Dev nD) :
    W4 m ρ c (Proc.devRef .tc main_v12)
      = Cert.Spec.result (m ((c.tc : Thread nD τ).loc main_arg1)) (m ((c.tc : Thread nD τ).loc main_arg2))
          (m ((c.tc : Thread nD τ).loc main_arg3)) (m ((c.tc : Thread nD τ).loc main_arg4)) := by
  refine (W4_arr m ρ c 1).trans ?_
  rw [ClampRegion.final (V3 m ρ) c, sums_eq m ρ c, messages_eq m ρ c, dst_eq m ρ c]
  rfl

/-- The idealized kernel's run with its result named: every weakly fair execution terminates, nothing faulting, with
    the result buffer at the specification's result of the arguments and the arguments as launched. -/
theorem run : θ_run defs (onTc (τ := τ) (main (F := Ideal))) ⟨m, fun _ => 0, ρ⟩ (fun r => ∀ c : Dev nD,
      r.2.mem ((c.tc : Thread nD τ).loc main_v12)
        = Cert.Spec.result (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_eq m ρ c), (h c).2⟩) (Cert.KernelIdeal.Result.run_W4 m ρ)

end Cert.KernelIdeal.Whole

end
-- ==== Proof.ReferenceRun.lean ====
/-
  The idealized reference, run. Its @main is a straight line of host operations once its three outlined functions
  (the nan_to_num guards, each guard's select, the clip) are unfolded at their calls: the weights as a column and
  then as a full array, the wrapped source indices, the row gather, the product, the zero array, the scatter-add by
  destination, the three guards and the clamp. Every weakly fair execution terminates with each buffer at the fold of
  those operations over the launch contents; read at the result buffer, the fold is the operations' composed term
  of the four arguments it depends on.
-/
import proofs.«167203_j56083682951493_2_alg».proof.Proof.Gen.ReferenceIdeal
import Idealize.ShloMosaic.Lib.StableHlo.Run

noncomputable section

namespace Cert.ReferenceIdeal.Straight

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls unfolded: nineteen of @main's own up to the three guard constants; the
    guards' seventeen (the self-comparison, then per guard the replacement broadcast and the select, and between
    them each infinity, its broadcast and the comparison with it); the two clamp bounds; the clip's six. -/
abbrev ops : List (HloOp τ sig (Elt F)) :=
  [ unary main_arg4 main_v0 (broadcastInDim S3200000x1 ![0] bcast_S3200000_S3200000x1_0 : (⟨S3200000, .f32⟩ : BufTy).Contents (Elt F) → (⟨S3200000x1, .f32⟩ : BufTy).Contents (Elt F)),
    nullary main_c (constantI S_ 32 0#32),
    unary main_c main_v1 (broadcastInDim S3200000 ![] bcast_S_S3200000 : (⟨S_, .i32⟩ : BufTy).Contents (Elt F) → (⟨S3200000, .i32⟩ : BufTy).Contents (Elt F)),
    binary main_arg2 main_v1 main_v2 (cmpi .slt : (⟨S3200000, .i32⟩ : BufTy).Contents (Elt F) → (⟨S3200000, .i32⟩ : BufTy).Contents (Elt F) → (⟨S3200000, .i1⟩ : BufTy).Contents (Elt F)),
    nullary main_c_0 (constantI S_ 32 100000#32),
    unary main_c_0 main_v3 (broadcastInDim S3200000 ![] bcast_S_S3200000 : (⟨S_, .i32⟩ : BufTy).Contents (Elt F) → (⟨S3200000, .i32⟩ : BufTy).Contents (Elt F)),
    binary main_arg2 main_v3 main_v4 (addi : (⟨S3200000, .i32⟩ : BufTy).Contents (Elt F) → (⟨S3200000, .i32⟩ : BufTy).Contents (Elt F) → (⟨S3200000, .i32⟩ : BufTy).Contents (Elt F)),
    ternary main_v2 main_v4 main_arg2 main_v5 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v5 main_v6 (broadcastInDim S3200000x1 ![0] bcast_S3200000_S3200000x1_0 : (⟨S3200000, .i32⟩ : BufTy).Contents (Elt F) → (⟨S3200000x1, .i32⟩ : BufTy).Contents (Elt F)),
    binary main_arg1 main_v6 main_v7 ((fun x i => Host.gather gather_S100000x64_S3200000x1_S3200000x64_1_0_n_n_0_1_164 x i) : (⟨S100000x64, .f32⟩ : BufTy).Contents (Elt F) → (⟨S3200000x1, .i32⟩ : BufTy).Contents (Elt F) → (⟨S3200000x64, .f32⟩ : BufTy).Contents (Elt F)),
    unary main_v0 main_v8 (broadcastInDim S3200000x64 ![0, 1] bcast_S3200000x1_S3200000x64_0_1 : (⟨S3200000x1, .f32⟩ : BufTy).Contents (Elt F) → (⟨S3200000x64, .f32⟩ : BufTy).Contents (Elt F)),
    binary main_v8 main_v7 main_v9 (mulf : (⟨S3200000x64, .f32⟩ : BufTy).Contents (Elt F) → (⟨S3200000x64, .f32⟩ : BufTy).Contents (Elt F) → (⟨S3200000x64, .f32⟩ : BufTy).Contents (Elt F)),
    nullary main_cst (constant S_ .f32 0x00000000#32),
    unary main_cst main_v10 (broadcastInDim S100000x64 ![] bcast_S_S100000x64 : (⟨S_, .f32⟩ : BufTy).Contents (Elt F) → (⟨S100000x64, .f32⟩ : BufTy).Contents (Elt F)),
    unary main_arg3 main_v11 (broadcastInDim S3200000x1 ![0] bcast_S3200000_S3200000x1_0 : (⟨S3200000, .i32⟩ : BufTy).Contents (Elt F) → (⟨S3200000x1, .i32⟩ : BufTy).Contents (Elt F)),
    ternary main_v10 main_v11 main_v9 main_v12 ((fun x i u => Host.scatterAdd scatter_S100000x64_S3200000x1_S3200000x64_1_0_0_1 x i u) : (⟨S100000x64, .f32⟩ : BufTy).Contents (Elt F) → (⟨S3200000x1, .i32⟩ : BufTy).Contents (Elt F) → (⟨S3200000x64, .f32⟩ : BufTy).Contents (Elt F) → (⟨S100000x64, .f32⟩ : BufTy).Contents (Elt F)),
    nullary main_cst_1 (constant S_ .f32 0x00000000#32),
    nullary main_cst_2 (constant S_ .f32 0xC9742400#32),
    nullary main_cst_3 (constant S_ .f32 0x49742400#32),
    TRef.binary (.of main_v12) (.of main_v12) main_call0.v0 (cmpf .une),
    TRef.unary (.of main_cst_1) main_call0.v1 id,
    TRef.unary main_call0.v1 main_call0.call0.v0 (broadcastInDim S100000x64 ![] bcast_S_S100000x64),
    TRef.ternary main_call0.v0 main_call0.call0.v0 (.of main_v12) main_call0.call0.v1 select,
    TRef.nullary main_call0.cst (constant S_ .f32 0x7F800000#32),
    TRef.unary main_call0.cst main_call0.v3 (broadcastInDim S100000x64 ![] bcast_S_S100000x64),
    TRef.binary main_call0.call0.v1 main_call0.v3 main_call0.v4 (cmpf .oeq),
    TRef.unary (.of main_cst_3) main_call0.v5 id,
    TRef.unary main_call0.v5 main_call0.call1.v0 (broadcastInDim S100000x64 ![] bcast_S_S100000x64),
    TRef.ternary main_call0.v4 main_call0.call1.v0 main_call0.call0.v1 main_call0.call1.v1 select,
    TRef.nullary main_call0.cst_0 (constant S_ .f32 0xFF800000#32),
    TRef.unary main_call0.cst_0 main_call0.v7 (broadcastInDim S100000x64 ![] bcast_S_S100000x64),
    TRef.binary main_call0.call1.v1 main_call0.v7 main_call0.v8 (cmpf .oeq),
    TRef.unary (.of main_cst_2) main_call0.v9 id,
    TRef.unary main_call0.v9 main_call0.call2.v0 (broadcastInDim S100000x64 ![] bcast_S_S100000x64),
    TRef.ternary main_call0.v8 main_call0.call2.v0 main_call0.call1.v1 main_call0.call2.v1 select,
    nullary main_cst_4 (constant S_ .f32 0xC1A00000#32),
    nullary main_cst_5 (constant S_ .f32 0x41A00000#32),
    TRef.unary (.of main_cst_4) main_call1.v0 id,
    TRef.unary main_call1.v0 main_call1.v1 (broadcastInDim S100000x64 ![] bcast_S_S100000x64),
    TRef.binary main_call1.v1 (.of main_v13) main_call1.v2 maximumf,
    TRef.unary (.of main_cst_5) main_call1.v3 id,
    TRef.unary main_call1.v3 main_call1.v4 (broadcastInDim S100000x64 ![] bcast_S_S100000x64),
    TRef.binary main_call1.v4 main_call1.v2 main_call1.v5 minimumf ]

set_option maxRecDepth 2048 in
/-- @main is that straight line: the functions' definitions unfolded at their calls, both sides are one chain of
    steps once sequencing is reassociated. -/
theorem main_eq (c : Dev nD) : main (F := F) c = seq ops := by
  simp only [main, fn_nan_to_num.body, fn_where.body, fn_clip.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub ..,
    nullary_bufs_sub .., unary_bufs_sub .., unary_bufs_sub .., ternary_bufs_sub .., nullary_bufs_sub .., nullary_bufs_sub ..,
    nullary_bufs_sub ..,
    binary_bufs_sub .., unary_bufs_sub .., unary_bufs_sub .., ternary_bufs_sub .., nullary_bufs_sub .., unary_bufs_sub ..,
    binary_bufs_sub .., unary_bufs_sub .., unary_bufs_sub .., ternary_bufs_sub .., nullary_bufs_sub .., unary_bufs_sub ..,
    binary_bufs_sub .., unary_bufs_sub .., unary_bufs_sub .., ternary_bufs_sub ..,
    nullary_bufs_sub .., nullary_bufs_sub ..,
    unary_bufs_sub .., unary_bufs_sub .., binary_bufs_sub .., unary_bufs_sub .., unary_bufs_sub .., binary_bufs_sub ..⟩

/-- The sums before the guards, as the operations compose them: the weights broadcast to a column and then along
    the rows, times the gathered rows, scatter-added by destination onto zeros. -/
def sums (x : FVec F S100000x64 .f32) (src dst : IVec S3200000 32) (w : FVec F S3200000 .f32) : FVec F S100000x64 .f32 :=
  Host.scatterAdd scatter_S100000x64_S3200000x1_S3200000x64_1_0_0_1
    (broadcastInDim S100000x64 ![] bcast_S_S100000x64 (constant S_ .f32 0x00000000#32))
    (broadcastInDim S3200000x1 ![0] bcast_S3200000_S3200000x1_0 dst)
    (mulf (broadcastInDim S3200000x64 ![0, 1] bcast_S3200000x1_S3200000x64_0_1 (broadcastInDim S3200000x1 ![0] bcast_S3200000_S3200000x1_0 w))
      (Host.gather gather_S100000x64_S3200000x1_S3200000x64_1_0_n_n_0_1_164 x
        (broadcastInDim S3200000x1 ![0] bcast_S3200000_S3200000x1_0
          (select (cmpi .slt src (broadcastInDim S3200000 ![] bcast_S_S3200000 (constantI S_ 32 0#32)))
            (addi src (broadcastInDim S3200000 ![] bcast_S_S3200000 (constantI S_ 32 100000#32))) src))))

/-- The guards and the clamp on an array, as the operations compose them. -/
def guarded (s : FVec F S100000x64 .f32) : FVec F S100000x64 .f32 :=
  let a : FVec F S100000x64 .f32 := select (cmpf .une s s) (broadcastInDim S100000x64 ![] bcast_S_S100000x64 (id (constant S_ .f32 0x00000000#32))) s
  let b : FVec F S100000x64 .f32 := select (cmpf .oeq a (broadcastInDim S100000x64 ![] bcast_S_S100000x64 (constant S_ .f32 0x7F800000#32))) (broadcastInDim S100000x64 ![] bcast_S_S100000x64 (id (constant S_ .f32 0x49742400#32))) a
  let d : FVec F S100000x64 .f32 := select (cmpf .oeq b (broadcastInDim S100000x64 ![] bcast_S_S100000x64 (constant S_ .f32 0xFF800000#32))) (broadcastInDim S100000x64 ![] bcast_S_S100000x64 (id (constant S_ .f32 0xC9742400#32))) b
  minimumf (broadcastInDim S100000x64 ![] bcast_S_S100000x64 (id (constant S_ .f32 0x41A00000#32)))
    (maximumf (broadcastInDim S100000x64 ![] bcast_S_S100000x64 (id (constant S_ .f32 0xC1A00000#32))) d)

attribute [local irreducible] Host.gather Host.scatterAdd in
set_option maxRecDepth 8192 in
/-- The fold of the operations, read at the result buffer, is the guards and the clamp of the sums of the argument
    buffers' contents. -/
theorem out_eq (V : Valuation τ sig (Elt F)) :
    after ops V (main_v14 : DevRef τ sig)
      = guarded (sums (V (main_arg1 : DevRef τ sig)) (V (main_arg2 : DevRef τ sig)) (V (main_arg3 : DevRef τ sig)) (V (main_arg4 : DevRef τ sig))) := by
  after_results_simp
  rfl

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp

/-- Every weakly fair execution of @main terminates, nothing faulting, with the result at the guards and the clamp
    of the sums of the arguments, and the arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v14) = guarded (sums (m ((c.tc : Thread nD τ).loc main_arg1)) (m ((c.tc : Thread nD τ).loc main_arg2)) (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v14).trans (out_eq _), (h c main_arg0).trans (arg0_eq _),
      (h c main_arg1).trans (arg1_eq _), (h c main_arg2).trans (arg2_eq _), (h c main_arg3).trans (arg3_eq _),
      (h c main_arg4).trans (arg4_eq _)⟩)
    (run_seq scopedRefs_eq scopedSems_eq defs main (fun _ => ops) main_eq (fun _ => ops_sub) m ρ)

end Cert.ReferenceIdeal.Straight

end
-- ==== Proof.ReferenceValue.lean ====
/-
  The reference's composed term is the specification's result. Two things differ in spelling. The reference
  multiplies "weight times row" where the specification has "row times weight": multiplication of extended reals
  commutes (no finiteness is used). And the reference asks "unordered or unequal to itself" where the kernel asks
  "ordered and unequal to itself": on the extended reals both are the one comparison x ≠ x. The weights reach the
  product through two broadcasts — the vector to a column, the column along the rows — which read weight e at
  every entry (e, k). The gather and the scatter-add are the same operations on both sides and stay closed.
-/
import proofs.«167203_j56083682951493_2_alg».proof.Proof.ReferenceRun
import proofs.«167203_j56083682951493_2_alg».proof.Proof.Spec
import Idealize.ShloMosaic.Lib.Pipeline.Value
import Idealize.ShloMosaic.Lib.ValueIdx

noncomputable section

namespace Cert.ReferenceIdeal.Bridge

open Cert.ReferenceIdeal Cert.ReferenceIdeal.Gen Idealize.ShloMosaic Idealize.ShloMosaic.ValueIdx

attribute [local irreducible] Host.gather Host.scatterAdd

variable [Cert.KernelIdeal.Facts]

/-- The weight vector broadcast to a column and then along the rows reads weight e at entry (e, k). -/
theorem weights_apply (w : FVec Ideal S3200000 .f32) (i : S3200000x64.Idx) :
    broadcastInDim S3200000x64 ![0, 1] bcast_S3200000x1_S3200000x64_0_1 (broadcastInDim S3200000x1 ![0] bcast_S3200000_S3200000x1_0 w) i
      = w (ix1 ⟨(i 0).val, idx2_lt0 i⟩) := by
  rw [broadcastInDim_apply ![0, 1] bcast_S3200000x1_S3200000x64_0_1 _ i (ix2 (⟨(i 0).val, idx2_lt0 i⟩ : Fin 3200000) (0 : Fin 1))
    (by intro a; match a with | ⟨0, _⟩ => rfl | ⟨1, _⟩ => rfl)]
  rw [broadcastInDim_apply ![0] bcast_S3200000_S3200000x1_0 w _ (ix1 (⟨(i 0).val, idx2_lt0 i⟩ : Fin 3200000))
    (by intro a; match a with | ⟨0, _⟩ => rfl)]

/-- The reference's product "weights times gathered rows" is the specification's messages. -/
theorem product_eq (x : FVec Ideal S100000x64 .f32) (src : IVec S3200000 32) (w : FVec Ideal S3200000 .f32) :
    mulf (broadcastInDim S3200000x64 ![0, 1] bcast_S3200000x1_S3200000x64_0_1 (broadcastInDim S3200000x1 ![0] bcast_S3200000_S3200000x1_0 w))
      (Host.gather gather_S100000x64_S3200000x1_S3200000x64_1_0_n_n_0_1_164 x
        (broadcastInDim S3200000x1 ![0] bcast_S3200000_S3200000x1_0
          (select (cmpi .slt src (broadcastInDim S3200000 ![] bcast_S_S3200000 (constantI S_ 32 0#32)))
            (addi src (broadcastInDim S3200000 ![] bcast_S_S3200000 (constantI S_ 32 100000#32))) src)))
      = Cert.Spec.weighted (Cert.Spec.rows x src) w := by
  funext i
  refine (mulf_apply _ _ i).trans ?_
  rw [weights_apply]
  exact mul_comm _ _

/-- The reference's sums are the specification's. -/
theorem sums_eq (x : FVec Ideal S100000x64 .f32) (src dst : IVec S3200000 32) (w : FVec Ideal S3200000 .f32) :
    Straight.sums (F := Ideal) x src dst w = Cert.Spec.summed (Cert.Spec.weighted (Cert.Spec.rows x src) w) dst := by
  unfold Straight.sums
  exact congrArg (fun u => Host.scatterAdd scatter_S100000x64_S3200000x1_S3200000x64_1_0_0_1
    (broadcastInDim S100000x64 ![] bcast_S_S100000x64 (constant (F := Ideal) S_ .f32 0x00000000#32))
    (broadcastInDim S3200000x1 ![0] bcast_S3200000_S3200000x1_0 dst) u) (product_eq x src w)

/-- The reference's guards and clamp are the scalar map, entry by entry. -/
theorem guarded_eq (s : FVec Ideal S100000x64 .f32) : Straight.guarded (F := Ideal) s = fun i => Cert.Spec.clampS .one (s i) := by
  funext i
  exact Cert.Spec.clampS_une (s i)

/-- The reference's result term is the specification's result. -/
theorem result_eq (x : FVec Ideal S100000x64 .f32) (src dst : IVec S3200000 32) (w : FVec Ideal S3200000 .f32) :
    Straight.guarded (Straight.sums (F := Ideal) x src dst w) = Cert.Spec.result x src dst w := by
  rw [guarded_eq, sums_eq]
  rfl

end Cert.ReferenceIdeal.Bridge

end
-- ==== Proof.lean ====
/-
  The certificate: a message-passing step on a graph — gather each edge's source row, scale it by the edge's weight,
  sum the messages by destination, then replace infinities by ±10^6 and clamp to [-20, 20] — computed by a program
  with two pipelined regions (the scaling, and the guards with the clamp) around the same host gather and scatter-add
  that the reference uses.

  On the extended reals both programs compute ONE function of the arguments (Proof/Spec.lean, `result`): entry by
  entry, the scalar guard-and-clamp map of the scatter-add, by destination, of "source row times weight". The kernel
  side is read off its run (Proof/KernelRun.lean: the result buffer at the last boundary's contents;
  Proof/ScaleRegion.lean and Proof/ClampRegion.lean: each region's output array as one function of the arrays it
  finds, because its blocks tile the array and every block is that function's block; Proof/KernelValue.lean: the four
  stretches composed). The reference side is its straight line of host operations (Proof/ReferenceRun.lean) and the
  two places where its spelling differs (Proof/ReferenceValue.lean): "weight times row" for "row times weight" —
  multiplication commutes on the extended reals, so no finiteness of the inputs is used — and the unordered form
  of the comparison "x ≠ x", which no extended real satisfies in either form.

  The idealization rewrote nothing, so `preserves` asks nothing. The two kernel frames are the generated ones; the
  reference's frame is its run with the result forgotten.
-/
import proofs.«167203_j56083682951493_2_alg».proof.Defs
import proofs.«167203_j56083682951493_2_alg».proof.Proof.Gen.Kernel
import proofs.«167203_j56083682951493_2_alg».proof.Proof.Gen.Kernel.Skeleton
import proofs.«167203_j56083682951493_2_alg».proof.Proof.Gen.Kernel.Launch
import proofs.«167203_j56083682951493_2_alg».proof.Proof.Gen.Kernel.Points
import proofs.«167203_j56083682951493_2_alg».proof.Proof.Gen.Kernel.Frame
import proofs.«167203_j56083682951493_2_alg».proof.Proof.Gen.KernelIdeal
import proofs.«167203_j56083682951493_2_alg».proof.Proof.Gen.KernelIdeal.Skeleton
import proofs.«167203_j56083682951493_2_alg».proof.Proof.Gen.KernelIdeal.Launch
import proofs.«167203_j56083682951493_2_alg».proof.Proof.Gen.KernelIdeal.Points
import proofs.«167203_j56083682951493_2_alg».proof.Proof.Gen.KernelIdeal.Frame
import proofs.«167203_j56083682951493_2_alg».proof.Proof.Gen.ReferenceIdeal
import proofs.«167203_j56083682951493_2_alg».proof.Proof.Gen.Pre_finite_inputs
import proofs.«167203_j56083682951493_2_alg».proof.Proof.KernelValue
import proofs.«167203_j56083682951493_2_alg».proof.Proof.ReferenceValue
import Idealize.ShloMosaic.Adequacy
import Idealize.ShloMosaic.Init

noncomputable section

namespace Cert.Proof

open Idealize.ShloMosaic Idealize.ShloMosaic.TcCoe Idealize.SL.Sem

/-- The word-level kernel terminates, faults nowhere and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the idealized reference: its run, the result forgotten. -/
theorem frame_referenceIdeal : Cert.frame_ReferenceIdeal := fun m ρ _ =>
  (θ_run Cert.ReferenceIdeal.defs _ _).mono (fun _ h c => (h c).2) (Cert.ReferenceIdeal.Straight.run (F := Ideal) m ρ)

/-- The idealization rewrote no operation. -/
theorem preserves : Cert.preserves_Kernel_KernelIdeal := trivial

/-- From memories agreeing on the arguments both idealized programs end with the specification's result of those
    arguments in their result buffers: the kernel by its run read through its four stretches, the reference by its
    straight line and the two spelling differences. -/
theorem algebraic : Cert.algebraic_KernelIdeal_ReferenceIdeal := by
  intro m ρ m' ρ' _ hagree
  refine ⟨fun c => Cert.Spec.result
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Whole.run m ρ, ?_⟩
  refine (θ_run Cert.ReferenceIdeal.defs _ _).mono (fun _ h c => ⟨(h c).1.trans ?_, (h c).2⟩)
    (Cert.ReferenceIdeal.Straight.run (F := Ideal) m' ρ')
  rw [(hagree c).2.1, (hagree c).2.2.1, (hagree c).2.2.2.1, (hagree c).2.2.2.2]
  exact Cert.ReferenceIdeal.Bridge.result_eq _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
